-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S1024x1024 : Shape := ⟨2, ![1024, 1024]⟩
abbrev S1024 : Shape := ⟨1, ![1024]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32768x512 .f32) (main_arg1 : FVec F S1024x1024 .f32) (main_arg2 : FVec F S1024 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32768x512 : Shape := ⟨2, ![32768, 512]⟩
abbrev S1024x1024 : Shape := ⟨2, ![1024, 1024]⟩
abbrev S1024 : Shape := ⟨1, ![1024]⟩
abbrev S256 : Shape := ⟨1, ![256]⟩
abbrev S_ : Shape := ⟨0, ![]⟩
abbrev S256x1 : Shape := ⟨2, ![256, 1]⟩
abbrev S256x2 : Shape := ⟨2, ![256, 2]⟩
abbrev S256x512 : Shape := ⟨2, ![256, 512]⟩
abbrev S512x256 : Shape := ⟨2, ![512, 256]⟩
abbrev S1x256 : Shape := ⟨2, ![1, 256]⟩
abbrev S32768x256 : Shape := ⟨2, ![32768, 256]⟩
abbrev S4096x512 : Shape := ⟨2, ![4096, 512]⟩
abbrev S4096x256 : Shape := ⟨2, ![4096, 256]⟩

abbrev nBuf : Space → Nat
  | .hbm => 35
  | .vmem => 6
  | .smem => 0
  | _ => 0

abbrev bufTy : (tb : Table) → Fin (tcTables nBuf tb) → BufTy
  | .hbm, ⟨0, _⟩ => ⟨S32768x512, .f32⟩
  | .hbm, ⟨1, _⟩ => ⟨S1024x1024, .f32⟩
  | .hbm, ⟨2, _⟩ => ⟨S1024, .f32⟩
  | .hbm, ⟨3, _⟩ => ⟨S256, .i32⟩
  | .hbm, ⟨4, _⟩ => ⟨S_, .i32⟩
  | .hbm, ⟨5, _⟩ => ⟨S256, .i32⟩
  | .hbm, ⟨6, _⟩ => ⟨S256, .i32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i1⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S256, .i32⟩
  | .hbm, ⟨17, _⟩ => ⟨S256x1, .i32⟩
  | .hbm, ⟨18, _⟩ => ⟨S_, .i32⟩
  | .hbm, ⟨19, _⟩ => ⟨S256x1, .i32⟩
  | .hbm, ⟨20, _⟩ => ⟨S256x2, .i32⟩
  | .hbm, ⟨21, _⟩ => ⟨S256x512, .f32⟩
  | .hbm, ⟨22, _⟩ => ⟨S_, .i32⟩
  | .hbm, ⟨23, _⟩ => ⟨S256, .i32⟩
  | .hbm, ⟨24, _⟩ => ⟨S256, .i1⟩
  | .hbm, ⟨25, _⟩ => ⟨S_, .i32⟩
  | .hbm, ⟨26, _⟩ => ⟨S256, .i32⟩
  | .hbm, ⟨27, _⟩ => ⟨S256, .i32⟩
  | .hbm, ⟨28, _⟩ => ⟨S256, .i32⟩
  | .hbm, ⟨29, _⟩ => ⟨S256x1, .i32⟩
  | .hbm, ⟨30, _⟩ => ⟨S256, .f32⟩
  | .hbm, ⟨31, _⟩ => ⟨S512x256, .f32⟩
  | .hbm, ⟨32, _⟩ => ⟨S1x256, .f32⟩
  | .hbm, ⟨33, _⟩ => ⟨S512x256, .bf16⟩
  | .hbm, ⟨34, _⟩ => ⟨S32768x256, .f32⟩
  | .local _ .vmem, ⟨0, _⟩ => ⟨S4096x512, .f32⟩
  | .local _ .vmem, ⟨1, _⟩ => ⟨S4096x512, .f32⟩
  | .local _ .vmem, ⟨2, _⟩ => ⟨S512x256, .bf16⟩
  | .local _ .vmem, ⟨3, _⟩ => ⟨S1x256, .f32⟩
  | .local _ .vmem, ⟨4, _⟩ => ⟨S4096x256, .f32⟩
  | .local _ .vmem, ⟨5, _⟩ => ⟨S4096x256, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_c_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  concatenates_S256x1_S256x1_S256x2_d1 : Shape.Concatenates [S256x1, S256x1] S256x2 1
  transposes_S256x512_S512x256_1_0 : S256x512.Transposes [1, 0] S512x256
  shapeCasts_S256_S1x256 : S256.ShapeCasts S1x256
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  gather_S1024x1024_S256x2_S256x512_1_0_n_n_01_1_1512_wf : GatherDims.WF S1024x1024 S256x2 S256x512 [1] [0] [] [0, 1] [] 1 ![1, 512]
  gather_S1024_S256x1_S256_n_0_n_n_0_1_1_wf : GatherDims.WF S1024 S256x1 S256 [] [0] [] [0] [] 1 ![1]
  dot_S4096x512_S512x256_S4096x256_1_0_0_1_n_n_wf : DotDims.WF S4096x512 S512x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S32768x512.size a
  hwx0_0 : ∀ i : grid0.Coords, EltTy.bits .f32 = 32 ∨ (Rect.block (s := S32768x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S32768x256.size a
  hwx0_3 : ∀ i : grid0.Coords, EltTy.bits .f32 = 32 ∨ (Rect.block (s := S32768x256) S4096x256.size (cc0_transform_3 i) (hinb0_3 i)).WholeWords (EltTy.packing .f32)

variable [Facts₀]

def gather_S1024x1024_S256x2_S256x512_1_0_n_n_01_1_1512 : GatherDims S1024x1024 S256x2 S256x512 where
  offsetDims := [1]
  collapsedSliceDims := [0]
  operandBatchingDims := []
  startIndicesBatchingDims := []
  startIndexMap := [0, 1]
  indexVectorDim := 1
  sliceSizes := ![1, 512]
  wf := gather_S1024x1024_S256x2_S256x512_1_0_n_n_01_1_1512_wf
def gather_S1024_S256x1_S256_n_0_n_n_0_1_1 : GatherDims S1024 S256x1 S256 where
  offsetDims := []
  collapsedSliceDims := [0]
  operandBatchingDims := []
  startIndicesBatchingDims := []
  startIndexMap := [0]
  indexVectorDim := 1
  sliceSizes := ![1]
  wf := gather_S1024_S256x1_S256_n_0_n_n_0_1_1_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S4096x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x512 : Shape := ⟨2, ![32768, 512]⟩
abbrev S1024x1024 : Shape := ⟨2, ![1024, 1024]⟩
abbrev S1024 : Shape := ⟨1, ![1024]⟩
abbrev S256 : Shape := ⟨1, ![256]⟩
abbrev S_ : Shape := ⟨0, ![]⟩
abbrev S256x1 : Shape := ⟨2, ![256, 1]⟩
abbrev S256x2 : Shape := ⟨2, ![256, 2]⟩
abbrev S256x512 : Shape := ⟨2, ![256, 512]⟩
abbrev S512x256 : Shape := ⟨2, ![512, 256]⟩
abbrev S32768x256 : Shape := ⟨2, ![32768, 256]⟩
abbrev S1x256 : Shape := ⟨2, ![1, 256]⟩

abbrev nBuf : Space → Nat
  | .hbm => 36
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S1024x1024, .f32⟩
  | .hbm, ⟨2, _⟩ => ⟨S1024, .f32⟩
  | .hbm, ⟨3, _⟩ => ⟨S256, .i32⟩
  | .hbm, ⟨4, _⟩ => ⟨S_, .i32⟩
  | .hbm, ⟨5, _⟩ => ⟨S256, .i32⟩
  | .hbm, ⟨6, _⟩ => ⟨S256, .i32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i1⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S256, .i32⟩
  | .hbm, ⟨17, _⟩ => ⟨S256x1, .i32⟩
  | .hbm, ⟨18, _⟩ => ⟨S_, .i32⟩
  | .hbm, ⟨19, _⟩ => ⟨S256x1, .i32⟩
  | .hbm, ⟨20, _⟩ => ⟨S256x2, .i32⟩
  | .hbm, ⟨21, _⟩ => ⟨S256x512, .f32⟩
  | .hbm, ⟨22, _⟩ => ⟨S_, .i32⟩
  | .hbm, ⟨23, _⟩ => ⟨S256, .i32⟩
  | .hbm, ⟨24, _⟩ => ⟨S256, .i1⟩
  | .hbm, ⟨25, _⟩ => ⟨S_, .i32⟩
  | .hbm, ⟨26, _⟩ => ⟨S256, .i32⟩
  | .hbm, ⟨27, _⟩ => ⟨S256, .i32⟩
  | .hbm, ⟨28, _⟩ => ⟨S256, .i32⟩
  | .hbm, ⟨29, _⟩ => ⟨S256x1, .i32⟩
  | .hbm, ⟨30, _⟩ => ⟨S256, .f32⟩
  | .hbm, ⟨31, _⟩ => ⟨S512x256, .f32⟩
  | .hbm, ⟨32, _⟩ => ⟨S32768x256, .f32⟩
  | .hbm, ⟨33, _⟩ => ⟨S1x256, .f32⟩
  | .hbm, ⟨34, _⟩ => ⟨S32768x256, .f32⟩
  | .hbm, ⟨35, _⟩ => ⟨S32768x256, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_c_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  concatenates_S256x1_S256x1_S256x2_d1 : Shape.Concatenates [S256x1, S256x1] S256x2 1
  transposes_S256x512_S512x256_1_0 : S256x512.Transposes [1, 0] S512x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  gather_S1024x1024_S256x2_S256x512_1_0_n_n_01_1_1512_wf : GatherDims.WF S1024x1024 S256x2 S256x512 [1] [0] [] [0, 1] [] 1 ![1, 512]
  gather_S1024_S256x1_S256_n_0_n_n_0_1_1_wf : GatherDims.WF S1024 S256x1 S256 [] [0] [] [0] [] 1 ![1]
  dot_S32768x512_S512x256_S32768x256_1_0_0_1_n_n_wf : DotDims.WF S32768x512 S512x256 S32768x256 [1] [0] [0] [1] [] []

variable [Facts₀]

def gather_S1024x1024_S256x2_S256x512_1_0_n_n_01_1_1512 : GatherDims S1024x1024 S256x2 S256x512 where
  offsetDims := [1]
  collapsedSliceDims := [0]
  operandBatchingDims := []
  startIndicesBatchingDims := []
  startIndexMap := [0, 1]
  indexVectorDim := 1
  sliceSizes := ![1, 512]
  wf := gather_S1024x1024_S256x2_S256x512_1_0_n_n_01_1_1512_wf
def gather_S1024_S256x1_S256_n_0_n_n_0_1_1 : GatherDims S1024 S256x1 S256 where
  offsetDims := []
  collapsedSliceDims := [0]
  operandBatchingDims := []
  startIndicesBatchingDims := []
  startIndexMap := [0]
  indexVectorDim := 1
  sliceSizes := ![1]
  wf := gather_S1024_S256x1_S256_n_0_n_n_0_1_1_wf
def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf

class Facts : Prop extends Facts₀ where

variable [Facts]
-- ==== Proof.Dense.lean ====
/-
  The function both programs compute: a dense layer applied to every row of a data array.

  For a data array `x` of 32768 rows and 512 columns, a weight array `wt` laid out as 512 rows and 256 columns, and a
  bias vector `bs` of 256 entries, entry `(p, c)` of the result is

      Σ_j x(p, j) · wt(j, c)  +  bs(c)

  on the extended reals.  Which rows of the square weight matrix and which entries of the long bias vector are selected
  (the last 256, in reverse order) is the same computation in both programs, so it stays inside `wt` and `bs`.
-/
import Idealize.ShloMosaic.Lib.ValueIdx
import Idealize.ShloMosaic.PureOps.Ideal

noncomputable section

namespace Cert.DenseRows

open Idealize.ShloMosaic Idealize.ShloMosaic.ValueIdx

/-- Entry `(p, c)` of the layer's output: the row `p` of the data against column `c` of the weights, plus the bias at `c`. -/
def dense (x : (⟨2, ![32768, 512]⟩ : Shape).Idx → EReal) (wt : (⟨2, ![512, 256]⟩ : Shape).Idx → EReal)
    (bs : (⟨1, ![256]⟩ : Shape).Idx → EReal) : (⟨2, ![32768, 256]⟩ : Shape).Idx → EReal :=
  fun i => (∑ j : Fin 512, x (ix2 (i 0 : Fin 32768) j) * wt (ix2 j (i 1 : Fin 256))) + bs (ix1 (i 1 : Fin 256))

/-- The same, at an index given by its coordinates. -/
theorem dense_apply (x : (⟨2, ![32768, 512]⟩ : Shape).Idx → EReal) (wt : (⟨2, ![512, 256]⟩ : Shape).Idx → EReal)
    (bs : (⟨1, ![256]⟩ : Shape).Idx → EReal) (p : Fin 32768) (c : Fin 256) :
    dense x wt bs (ix2 p c) = (∑ j : Fin 512, x (ix2 p j) * wt (ix2 j c)) + bs (ix1 c) := rfl

end Cert.DenseRows

end
-- ==== Proof.ReferenceDense.lean ====
/-
  The reference's result is the dense layer of its data argument, its transposed selection of weight rows and its
  selection of bias entries: the host's matrix product at entry `(p, c)` is the sum over the contracted coordinate, and the
  bias, laid as a row and repeated down the rows, contributes its entry `c`.
-/
import proofs.«139510_j73177652789461_2_alg».proof.Proof.Gen.ReferenceIdeal.Read
import proofs.«139510_j73177652789461_2_alg».proof.Proof.Dense

noncomputable section

namespace Cert.ReferenceIdeal.RefValue

open Cert.ReferenceIdeal Cert.ReferenceIdeal.Gen Idealize.ShloMosaic Idealize.ShloMosaic.ValueIdx Cert.DenseRows

/-- The reference's last stage is `dense` of the data, the transposed selected weight rows and the selected bias entries. -/
theorem result_eq (x : (⟨S32768x512, .f32⟩ : BufTy).Contents (Elt Ideal)) (W : (⟨S1024x1024, .f32⟩ : BufTy).Contents (Elt Ideal))
    (b : (⟨S1024, .f32⟩ : BufTy).Contents (Elt Ideal)) :
    Read.val_main_v25 (F := Ideal) x W b = dense x (Read.val_main_v21 (F := Ideal) W) (Read.val_main_v20 (F := Ideal) b) := by
  funext i
  obtain ⟨p, c, rfl⟩ : ∃ (p : Fin 32768) (c : Fin 256), i = ix2 p c := ⟨i 0, i 1, eq_ix2 i⟩
  have el : ∀ k : Fin 512, Read.lidx_main_v22 (ix2 p c) k = ix2 p k := fun k =>
    funext fun a => Fin.ext (by match a with | ⟨0, _⟩ => rfl | ⟨1, _⟩ => rfl)
  have er : ∀ k : Fin 512, Read.ridx_main_v22 (ix2 p c) k = ix2 k c := fun k =>
    funext fun a => Fin.ext (by match a with | ⟨0, _⟩ => rfl | ⟨1, _⟩ => rfl)
  have eb : Read.idx_main_v23 (Read.idx_main_v24 (ix2 p c)) = ix1 c :=
    funext fun a => Fin.ext (by match a with | ⟨0, _⟩ => rfl)
  rw [Read.val_main_v25_apply, Read.val_main_v22_apply, Read.val_main_v24_apply, Read.val_main_v23_apply, dense_apply]
  simp only [el, er, eb]
  rfl

end Cert.ReferenceIdeal.RefValue

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.LibRowBroadcast.lean ====
/-
  A row vector `[1, b]` broadcast down the rows of an `[a, b]` array, and a flat `[b]` vector laid as a row and
  broadcast the same way, read at an entry: entry `(p, q)` of the result is entry `q` of the row.
-/
import Idealize.ShloMosaic.Lib.ValueIdx
import Idealize.ShloMosaic.Lib.Pipeline.Value

noncomputable section

namespace Idealize.ShloMosaic.RowBroadcast

open Idealize.ShloMosaic Idealize.ShloMosaic.ValueIdx

variable {a b : ℕ} {α : Type}

/-- The kernel-side broadcast of a `[1, b]` row to `[a, b]`: entry `(p, q)` is the row's entry `(0, q)`. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · rfl

/-- The host-side broadcast of a `[1, b]` row to `[a, b]` along both axes: entry `(p, q)` is the row's `(0, q)`. -/
theorem broadcastInDim_row_apply (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · show q.val = ((ix2 p q : (⟨2, ![a, b]⟩ : Shape).Idx) (dims 1)).val
        rw [hd1]

/-- The host-side lay-out of a flat `[b]` vector as a `[1, b]` row (its one axis sent to axis 1): entry `(0, q)` is
    the vector's entry `q`. -/
theorem broadcastInDim_flat_apply (dims : Fin 1 → Fin 2) (hd : dims 0 = 1)
    (h : (⟨1, ![b]⟩ : Shape).BroadcastsInDim ⟨2, ![1, b]⟩ dims)
    (x : (⟨1, ![b]⟩ : Shape).Idx → α) (z : Fin 1) (q : Fin b) :
    broadcastInDim ⟨2, ![1, b]⟩ dims h x (ix2 z q) = x (ix1 q) := by
  refine broadcastInDim_apply dims h x (ix2 z q) (ix1 q) fun ax => ?_
  match ax with
  | ⟨0, _⟩ =>
    by_cases hb : b = 1
    · subst hb
      have : q.val = 0 := by omega
      simp [this]
    · split
      · rename_i h1; exact absurd h1 hb
      · show q.val = ((ix2 z q : (⟨2, ![1, b]⟩ : Shape).Idx) (dims 0)).val
        rw [hd]

/-- A `[b]` vector reshaped to a `[1, b]` row: entry `(0, q)` is the vector's entry `q`. -/
theorem shapeCast_flat_apply (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  have hz : z.val = 0 := by omega
  rw [Shape.rowMajor_val_one, Shape.rowMajor_val_two]
  show q.val = z.val * _ + q.val
  rw [hz, Nat.zero_mul, Nat.zero_add]

end Idealize.ShloMosaic.RowBroadcast

end
-- ==== Proof.BlockEntry.lean ====
/-
  One grid point's arithmetic, read at an entry.

  The body multiplies its block of 4096 data rows by the whole 512 × 256 weight array (into a zero accumulator) and adds the
  bias row to every row of the product.  Narrowing the data block to the weights' float format is the identity on
  the extended reals, and both shape casts are between equal shapes.  So entry `(p, q)` of the block's result is
  Σ_j x(p, j) · w(j, q) + b(0, q).
-/
import proofs.«139510_j73177652789461_2_alg».proof.Proof.Gen.KernelIdeal.Skeleton
import proofs.«139510_j73177652789461_2_alg».proof.Proof.LibPlainDot
import proofs.«139510_j73177652789461_2_alg».proof.Proof.LibRowBroadcast
import Idealize.ShloMosaic.Lib.Pipeline.Value

noncomputable section

namespace Cert.KernelIdeal.BlockEntry

open Cert.KernelIdeal Cert.KernelIdeal.Gen Idealize.ShloMosaic Idealize.ShloMosaic.ValueIdx

/-! ## The product's dimension record contracts the left operand's columns with the right operand's rows -/

theorem lhs0 (i : S4096x256.Idx) (q : dot_S4096x512_S512x256_S4096x256_1_0_0_1_n_n.contr.Idx) :
    (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide),
    dif_pos (show (0 : Fin S4096x512.rank) ∈ dot_S4096x512_S512x256_S4096x256_1_0_0_1_n_n.lhsNonContracting by decide)]
  rfl

theorem lhs1 (i : S4096x256.Idx) (q : dot_S4096x512_S512x256_S4096x256_1_0_0_1_n_n.contr.Idx) :
    (dot_S4096x512_S512x256_S4096x256_1_0_0_1_n_n.lhsIdx i q 1).val = (q ⟨0, by decide⟩).val :=
  dot_S4096x512_S512x256_S4096x256_1_0_0_1_n_n.lhsIdx_val_of_single rfl i q

theorem rhs0 (i : S4096x256.Idx) (q : dot_S4096x512_S512x256_S4096x256_1_0_0_1_n_n.contr.Idx) :
    (dot_S4096x512_S512x256_S4096x256_1_0_0_1_n_n.rhsIdx i q 0).val = (q ⟨0, by decide⟩).val :=
  dot_S4096x512_S512x256_S4096x256_1_0_0_1_n_n.rhsIdx_val_of_single rfl i q

theorem rhs1 (i : S4096x256.Idx) (q : dot_S4096x512_S512x256_S4096x256_1_0_0_1_n_n.contr.Idx) :
    (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide),
    dif_pos (show (1 : Fin S512x256.rank) ∈ dot_S4096x512_S512x256_S4096x256_1_0_0_1_n_n.rhsNonContracting by decide)]
  rfl

/-! ## The body's result at an entry -/

/-- Entry `(p, q)` of what the body stores: row `p` of the data block against column `q` of the weights, plus the bias row's
    entry `q`. -/
theorem pay_apply (x : Vec Ideal S4096x512 .f32) (w : Vec Ideal S512x256 .bf16) (b : Vec Ideal S1x256 .f32)
    (p : Fin 4096) (q : Fin 256) :
    k0_pay1 (F := Ideal) x w b (ix2 p q) = (∑ j : Fin 512, x (ix2 p j) * w (ix2 j q)) + b (ix2 (0 : Fin 1) q) := by
  unfold k0_pay1
  rw [addf_apply, shapeCast_self, shapeCast_self, RowBroadcast.broadcastTo_row_apply,
    PlainDot.matmul_zero_apply _ _ rfl rfl lhs0 lhs1 rhs0 rhs1]
  rfl

/-- The same at any index of the block, by its two coordinates. -/
theorem pay_at (x : Vec Ideal S4096x512 .f32) (w : Vec Ideal S512x256 .bf16) (b : Vec Ideal S1x256 .f32) (y : S4096x256.Idx) :
    k0_pay1 (F := Ideal) x w b y
      = (∑ j : Fin 512, x (ix2 (y 0 : Fin 4096) j) * w (ix2 j (y 1 : Fin 256))) + b (ix2 (0 : Fin 1) (y 1 : Fin 256)) := by
  obtain ⟨p, q, rfl⟩ : ∃ (p : Fin 4096) (q : Fin 256), y = ix2 p q := ⟨y 0, y 1, eq_ix2 y⟩
  exact pay_apply x w b p q

end Cert.KernelIdeal.BlockEntry

end
-- ==== Proof.KernelArray.lean ====
/-
  From blocks to the whole output array.

  Grid point `t` (of 8) reads rows 4096·t … 4096·t + 4095 of the data, the whole weight array and the whole bias row, and
  writes rows 4096·t … 4096·t + 4095 of the output.  Entry `(p, q)` of what it writes is the body's arithmetic on those
  blocks, which is the dense layer's entry at row 4096·t + p and column q of the arrays the region finds.  The eight row
  blocks cover the output (row r lies in block r / 4096), so after the run the output array is the dense layer of those
  arrays at every index.
-/
import proofs.«139510_j73177652789461_2_alg».proof.Proof.Gen.KernelIdeal.Value
import proofs.«139510_j73177652789461_2_alg».proof.Proof.BlockEntry
import proofs.«139510_j73177652789461_2_alg».proof.Proof.Dense

set_option maxRecDepth 16384

noncomputable section

namespace Cert.KernelIdeal.KernelArray

open Cert.KernelIdeal Cert.KernelIdeal.Gen Idealize.ShloMosaic Idealize.ShloMosaic.TcCoe Idealize.SL.Sem
open Idealize.ShloMosaic.ValueIdx Cert.DenseRows
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The dense layer of the three arrays the region finds on core `c`: the data argument, the weight array the host wrote
    for the second window, and the bias row the host wrote for the third (read along its one row). -/
def found (c : Dev nD) : S32768x256.Idx → EReal :=
  dense (V m c main_arg0) (V m c main_v23) (fun i => V m c main_v22 (ix2 (0 : Fin 1) (i 0 : Fin 256)))

/-- The dense layer's entry at an array index `i`, from a block's entries at the block index `y`: when the data block's row
    `y 0` is the array's row `i 0`, the weight block's column `y 1` is the array's column `i 1`, and the bias block's entry
    `y 1` is the bias row's entry `i 1`. -/
theorem entry_of_block (X : S32768x512.Idx → EReal) (Wt : S512x256.Idx → EReal) (B : S1x256.Idx → EReal)
    (xb : S4096x512.Idx → EReal) (wb : S512x256.Idx → EReal) (bb : S1x256.Idx → EReal)
    (y : S4096x256.Idx) (i : S32768x256.Idx)
    (hx : ∀ j : Fin 512, xb (ix2 (y 0 : Fin 4096) j) = X (ix2 (i 0 : Fin 32768) j))
    (hw : ∀ j : Fin 512, wb (ix2 j (y 1 : Fin 256)) = Wt (ix2 j (i 1 : Fin 256)))
    (hb : bb (ix2 (0 : Fin 1) (y 1 : Fin 256)) = B (ix2 (0 : Fin 1) (i 1 : Fin 256))) :
    (∑ j : Fin 512, xb (ix2 (y 0 : Fin 4096) j) * wb (ix2 j (y 1 : Fin 256))) + bb (ix2 (0 : Fin 1) (y 1 : Fin 256))
      = dense X Wt (fun k => B (ix2 (0 : Fin 1) (k 0 : Fin 256))) i := by
  show _ = (∑ j : Fin 512, X (ix2 (i 0 : Fin 32768) j) * Wt (ix2 j (i 1 : Fin 256))) + B (ix2 (0 : Fin 1) (i 1 : Fin 256))
  rw [hb]
  exact congrArg (· + _) (Finset.sum_congr rfl fun j _ => by rw [hx j, hw j])

/-- The printed index maps over the grid: the data window and the output window move together down the rows, at block
    row `t`; the weight and bias windows stay at block (0, 0); no window moves along the columns. -/
theorem index_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 7 :=
  (by decide +kernel : ∀ t : Fin grid0.N, _)

/-- Every one of the eight row blocks of the output is some point's. -/
theorem index_onto : ∀ q0 : Fin 8, ∃ t : Fin cfg0.N, win0_3.index t = ![q0.val, 0] :=
  (by decide +kernel : ∀ q0 : Fin 8, ∃ t : Fin grid0.N, win0_3.index t = ![q0.val, 0])

set_option maxHeartbeats 1000000 in
/-- What point `t` writes back is block `t` of the dense layer of the arrays the region finds. -/
theorem flushed_eq (c : Dev nD) (t : Fin cfg0.N) :
    (dats m 0 c).flushed 3 t = ((cfg0.win 3).blk t).view.read (Elt Ideal) (found m c) := by
  rw [Value.flushed3]
  unfold out0_3
  rw [View.canon_unit_zero zero_offsets]
  simp only [View.ld_unit_zero (S := S4096x512) zero_offsets, View.ld_unit_zero (S := S512x256) zero_offsets,
    View.ld_unit_zero (S := S1x256) zero_offsets]
  obtain ⟨e0, e1, e2, e3, e4, e5, e6, -⟩ := index_facts t
  funext y
  show k0_pay1 (F := Ideal) (iblk m c 0 t) (iblk m c 1 t) (iblk m c 2 t) y = found m c (((cfg0.win 3).blk t).view.emb y)
  refine (BlockEntry.pay_at (iblk m c 0 t) (iblk m c 1 t) (iblk m c 2 t) y).trans ?_
  have hy0 : (y 0).val < 4096 := (y 0).isLt
  have hy1 : (y 1).val < 256 := (y 1).isLt
  have hx : ∀ j : Fin 512, ((cfg0.win 0).blk t).view.emb (ix2 (y 0 : Fin 4096) j)
      = ix2 ((((cfg0.win 3).blk t).view.emb y) 0 : Fin 32768) j := fun j => by
    funext a; apply Fin.ext
    match a with
    | ⟨0, _⟩ => show win0_0.index t (0 : Fin 2) * 4096 + 1 * (y 0).val = win0_3.index t (0 : Fin 2) * 4096 + 1 * (y 0).val; omega
    | ⟨1, _⟩ => show win0_0.index t (1 : Fin 2) * 512 + 1 * j.val = j.val; omega
  have hw : ∀ j : Fin 512, ((cfg0.win 1).blk t).view.emb (ix2 j (y 1 : Fin 256))
      = ix2 j ((((cfg0.win 3).blk t).view.emb y) 1 : Fin 256) := fun j => by
    funext a; apply Fin.ext
    match a with
    | ⟨0, _⟩ => show win0_1.index t (0 : Fin 2) * 512 + 1 * j.val = j.val; omega
    | ⟨1, _⟩ => show win0_1.index t (1 : Fin 2) * 256 + 1 * (y 1).val = win0_3.index t (1 : Fin 2) * 256 + 1 * (y 1).val; omega
  have hb : ((cfg0.win 2).blk t).view.emb (ix2 (0 : Fin 1) (y 1 : Fin 256))
      = ix2 (0 : Fin 1) ((((cfg0.win 3).blk t).view.emb y) 1 : Fin 256) := by
    funext a; apply Fin.ext
    match a with
    | ⟨0, _⟩ => show win0_2.index t (0 : Fin 2) * 1 + 1 * 0 = 0; omega
    | ⟨1, _⟩ => show win0_2.index t (1 : Fin 2) * 256 + 1 * (y 1).val = win0_3.index t (1 : Fin 2) * 256 + 1 * (y 1).val; omega
  exact entry_of_block (V m c main_arg0) (V m c main_v23) (V m c main_v22) (iblk m c 0 t) (iblk m c 1 t) (iblk m c 2 t) y
    (((cfg0.win 3).blk t).view.emb y)
    (fun j => congrArg (V m c main_arg0) (hx j)) (fun j => congrArg (V m c main_v23) (hw j)) (congrArg (V m c main_v22) hb)

/-- An index of the output is in point `t`'s block iff each coordinate is in the block's range on its axis. -/
theorem mem_block (t : Fin cfg0.N) (i : S32768x256.Idx) :
    i ∈ ((cfg0.win 3).blk t).view.set ↔ ∀ a : Fin 2, win0_3.index t a * S4096x256.size a ≤ (i a).val
      ∧ (i a).val < win0_3.index t a * S4096x256.size a + S4096x256.size a := by
  show i ∈ ((View.whole main_v24).slice (win0_3.rect t)).set ↔ _
  rw [View.set_slice_whole, Rect.mem_set_unit]
  exact Iff.rfl

/-- Every index of the output lies in some point's block: row `r` in the block of point `r / 4096`. -/
theorem covered (i : S32768x256.Idx) :
    ∃ t : Fin cfg0.N, (cfg0.win 3).flush t = true ∧ i ∈ ((cfg0.win 3).blk t).view.set := by
  have hi0 : (i 0).val < 32768 := (i 0).isLt
  have hi1 : (i 1).val < 256 := (i 1).isLt
  obtain ⟨t, ht⟩ := index_onto ⟨(i 0).val / 4096, by omega⟩
  have q0 : win0_3.index t (0 : Fin 2) = (i 0).val / 4096 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 256 ≤ (i 1).val ∧ (i 1).val < win0_3.index t (1 : Fin 2) * 256 + 256; omega

/-- The output array after the run is the dense layer of the arrays the region finds. -/
theorem final (c : Dev nD) : (dats m 0 c).arrAt 3 cfg0.N = found m c :=
  (dats m 0 c).arrAt_eq_of_cover 3 (found m c) (fun t _ => flushed_eq m c t) covered

end Cert.KernelIdeal.KernelArray

end
-- ==== Proof.Operands.lean ====
/-
  The two arrays the host writes before the region.

  Before launching, the host selects the last 256 rows of the weight matrix in reverse order (their first 512 columns),
  transposes the selection and narrows its float format; and it selects the same 256 entries of the bias vector and lays
  them as one row.  The reference performs the same selection and the same transposition, so, narrowing being the identity on
  the extended reals, the weight array the region finds IS the reference's transposed selection, and the bias row is the
  reference's selected bias entries reshaped to one row.
-/
import proofs.«139510_j73177652789461_2_alg».proof.Proof.Gen.KernelIdeal.Frame
import proofs.«139510_j73177652789461_2_alg».proof.Proof.Gen.ReferenceIdeal.Read
import proofs.«139510_j73177652789461_2_alg».proof.Proof.LibRowBroadcast
import Idealize.ShloMosaic.Lib.StableHlo.Run

noncomputable section

namespace Cert.KernelIdeal.Operands

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 2000000 in
/-- The weight array the region finds is the reference's transposed selection of weight rows, of the same weight matrix. -/
theorem weights_eq (c : Dev nD) :
    (V m c main_v23 : S512x256.Idx → EReal)
      = Cert.ReferenceIdeal.Read.val_main_v21 (F := Ideal) (m ((c : Thread nD τ).loc main_arg1)) := by
  dsimp only [Gen.V, Gen.hostOps0]
  after_results_simp
  rfl

set_option maxHeartbeats 2000000 in
/-- The bias row the region finds is the reference's selection of bias entries, reshaped to one row. -/
theorem bias_eq (c : Dev nD) :
    (V m c main_v22 : S1x256.Idx → EReal)
      = shapeCast S1x256 (Cert.ReferenceIdeal.Read.val_main_v20 (F := Ideal) (m ((c : Thread nD τ).loc main_arg2)))
          shapeCasts_S256_S1x256 := by
  dsimp only [Gen.V, Gen.hostOps0]
  after_results_simp
  rfl

/-- Entry `(0, q)` of the bias row is entry `q` of the reference's selected bias entries. -/
theorem bias_apply (c : Dev nD) (q : Fin 256) :
    (V m c main_v22 : S1x256.Idx → EReal) (ix2 (0 : Fin 1) q)
      = Cert.ReferenceIdeal.Read.val_main_v20 (F := Ideal) (m ((c : Thread nD τ).loc main_arg2)) (ix1 q) := by
  rw [bias_eq]
  exact RowBroadcast.shapeCast_flat_apply _ _ (0 : Fin 1) q

end Cert.KernelIdeal.Operands

end
-- ==== Proof.KernelRun.lean ====
/-
  The kernel's run, read: after every weakly fair execution the output array is the dense layer of the data argument,
  the reference's transposed selection of the weight matrix's rows and the reference's selection of the bias vector's
  entries; the three arguments are unchanged.
-/
import proofs.«139510_j73177652789461_2_alg».proof.Proof.KernelArray
import proofs.«139510_j73177652789461_2_alg».proof.Proof.Operands

noncomputable section

namespace Cert.KernelIdeal.KernelRun

open Cert.KernelIdeal Cert.KernelIdeal.Gen Idealize.ShloMosaic Idealize.ShloMosaic.TcCoe Idealize.SL.Sem
open Idealize.ShloMosaic.ValueIdx Cert.DenseRows

variable (m : (ℓ : Loc nD τ sig) → Buf (Elt Ideal) ℓ) (ρ : Dev nD → PrngReg)

/-- The dense layer of the arrays the region finds is the dense layer of the arguments: the data is as launched, the
    weight array and the bias row are the host's selections. -/
theorem found_eq (c : Dev nD) :
    KernelArray.found m c
      = dense (m ((c : Thread nD τ).loc main_arg0))
          (Cert.ReferenceIdeal.Read.val_main_v21 (F := Ideal) (m ((c : Thread nD τ).loc main_arg1)))
          (Cert.ReferenceIdeal.Read.val_main_v20 (F := Ideal) (m ((c : Thread nD τ).loc main_arg2))) := by
  unfold KernelArray.found
  exact congr (congr (congrArg dense (V_main_arg0 m c)) (Operands.weights_eq m c))
    (funext fun i => (Operands.bias_apply m c (i 0 : Fin 256)).trans
      (congrArg (Cert.ReferenceIdeal.Read.val_main_v20 (F := Ideal) (m ((c : Thread nD τ).loc main_arg2))) (eq_ix1 i).symm))

/-- Every weakly fair execution of the kernel ends with the output at that dense layer and the arguments unchanged. -/
theorem run : θ_run defs (onTc (τ := τ) (main (F := Ideal))) ⟨m, fun _ => 0, ρ⟩ fun r => ∀ c : Dev nD,
      r.2.mem ((c : Thread nD τ).loc main_v24)
        = dense (m ((c : Thread nD τ).loc main_arg0))
            (Cert.ReferenceIdeal.Read.val_main_v21 (F := Ideal) (m ((c : Thread nD τ).loc main_arg1)))
            (Cert.ReferenceIdeal.Read.val_main_v20 (F := Ideal) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono
    (fun r h c => ⟨(h c).1.trans ((KernelArray.final m c).trans (found_eq m c)), (h c).2⟩)
    (Value.run_blocks m ρ)

end Cert.KernelIdeal.KernelRun

end
-- ==== Proof.lean ====
/-
  The kernel and its reference compute one function on the extended reals.

  Both programs select the last 256 rows of the 1024 × 1024 weight matrix in reverse order (their first 512 columns) and
  the same 256 entries of the bias vector, by the same chain of integer operations and the same two gathers.  The
  reference then forms, for every data row p and selected row c,

      Σ_j x(p, j) · Wsel(c, j)  +  bsel(c)

  as one matrix product against the transposed selection plus the bias repeated down the rows.  The kernel cuts the
  32768 data rows into 8 blocks of 4096 rows; each grid point multiplies its block by the whole transposed selection
  (into a zero accumulator) and adds the bias row, and writes its 4096 rows of the output.  Narrowing the operands'
  float format is the identity on the extended reals, the contraction is the same sum over the same coordinate, and the
  eight row blocks cover the output, so the kernel's output array is that same function of the arguments, index by
  index.  No law beyond reading both sides at an index is used, so finiteness of the inputs is never needed.

  The kernel's run and the reference's run are the generated ones (the kernel's with its output array named block by
  block; the reference's read one operation at a time); the ideal pass rewrote nothing, so `preserves` is trivial.
-/
import proofs.«139510_j73177652789461_2_alg».proof.Defs
import proofs.«139510_j73177652789461_2_alg».proof.Proof.Gen.Kernel
import proofs.«139510_j73177652789461_2_alg».proof.Proof.Gen.Kernel.Skeleton
import proofs.«139510_j73177652789461_2_alg».proof.Proof.Gen.Kernel.Launch
import proofs.«139510_j73177652789461_2_alg».proof.Proof.Gen.Kernel.Points
import proofs.«139510_j73177652789461_2_alg».proof.Proof.Gen.Kernel.Frame
import proofs.«139510_j73177652789461_2_alg».proof.Proof.Gen.KernelIdeal
import proofs.«139510_j73177652789461_2_alg».proof.Proof.Gen.KernelIdeal.Skeleton
import proofs.«139510_j73177652789461_2_alg».proof.Proof.Gen.KernelIdeal.Launch
import proofs.«139510_j73177652789461_2_alg».proof.Proof.Gen.KernelIdeal.Points
import proofs.«139510_j73177652789461_2_alg».proof.Proof.Gen.KernelIdeal.Frame
import proofs.«139510_j73177652789461_2_alg».proof.Proof.Gen.ReferenceIdeal
import proofs.«139510_j73177652789461_2_alg».proof.Proof.Gen.Pre_finite_inputs
import proofs.«139510_j73177652789461_2_alg».proof.Proof.Gen.KernelIdeal.Value
import proofs.«139510_j73177652789461_2_alg».proof.Proof.Gen.ReferenceIdeal.Run
import proofs.«139510_j73177652789461_2_alg».proof.Proof.Gen.ReferenceIdeal.Read
import proofs.«139510_j73177652789461_2_alg».proof.Proof.ReferenceDense
import proofs.«139510_j73177652789461_2_alg».proof.Proof.KernelRun
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The kernel's output array ends at the dense layer of its arguments (through the selections), and the reference's
    result at the dense layer of ITS arguments; the arguments agree. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
